-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1x128 .f32) (main_arg10 : FVec F S1 .f32) (main_v33 : IVec S_ 1) : IVec S_ 1 :=
  let main_v34 : FVec F S1x128 .f32 := Host.absf main_arg9
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64x128 .f32) (main_arg7 : FVec F S64 .f32) (main_arg8 : FVec F S64x128 .f32) (main_arg9 : FVec F S1x128 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S2x200000 32) (main_arg3 : FVec F S128x128 .f32) (main_arg4 : FVec F S128 .f32) (main_arg5 : FVec F S128x128 .f32) (main_arg6 : FVec F S64x128 .f32) (main_arg7 : FVec F S64 .f32) (main_arg8 : FVec F S64x128 .f32) (main_arg9 : FVec F S1x128 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x128 : Shape := ⟨2, ![200000, 128]⟩
abbrev S128x1 : Shape := ⟨2, ![128, 1]⟩
abbrev S1x1 : Shape := ⟨2, ![1, 1]⟩
abbrev S10000x128 : Shape := ⟨2, ![10000, 128]⟩
abbrev S10000x1 : Shape := ⟨2, ![10000, 1]⟩

abbrev nBuf : Space → Nat
  | .hbm => 88
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S1x128, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .bf16⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S128x64, .f32⟩
  | .hbm, ⟨55, _⟩ => ⟨S128x64, .bf16⟩
  | .hbm, ⟨56, _⟩ => ⟨S128x64, .f32⟩
  | .hbm, ⟨57, _⟩ => ⟨S128x64, .bf16⟩
  | .hbm, ⟨58, _⟩ => ⟨S1x64, .f32⟩
  | .hbm, ⟨59, _⟩ => ⟨S100000x64, .f32⟩
  | .hbm, ⟨60, _⟩ => ⟨S1x200000, .i32⟩
  | .hbm, ⟨61, _⟩ => ⟨S200000, .i32⟩
  | .hbm, ⟨62, _⟩ => ⟨S1x200000, .i32⟩
  | .hbm, ⟨63, _⟩ => ⟨S200000, .i32⟩
  | .hbm, ⟨64, _⟩ => ⟨S_, .i32⟩
  | .hbm, ⟨65, _⟩ => ⟨S200000, .i32⟩
  | .hbm, ⟨66, _⟩ => ⟨S200000, .i1⟩
  | .hbm, ⟨67, _⟩ => ⟨S_, .i32⟩
  | .hbm, ⟨68, _⟩ => ⟨S200000, .i32⟩
  | .hbm, ⟨69, _⟩ => ⟨S200000, .i32⟩
  | .hbm, ⟨70, _⟩ => ⟨S200000, .i32⟩
  | .hbm, ⟨71, _⟩ => ⟨S200000x1, .i32⟩
  | .hbm, ⟨72, _⟩ => ⟨S200000x64, .f32⟩
  | .hbm, ⟨73, _⟩ => ⟨S_, .i32⟩
  | .hbm, ⟨74, _⟩ => ⟨S200000, .i32⟩
  | .hbm, ⟨75, _⟩ => ⟨S200000, .i1⟩
  | .hbm, ⟨76, _⟩ => ⟨S_, .i32⟩
  | .hbm, ⟨77, _⟩ => ⟨S200000, .i32⟩
  | .hbm, ⟨78, _⟩ => ⟨S200000, .i32⟩
  | .hbm, ⟨79, _⟩ => ⟨S200000, .i32⟩
  | .hbm, ⟨80, _⟩ => ⟨S200000x1, .i32⟩
  | .hbm, ⟨81, _⟩ => ⟨S200000x64, .f32⟩
  | .hbm, ⟨82, _⟩ => ⟨S200000x128, .f32⟩
  | .hbm, ⟨83, _⟩ => ⟨S128x1, .f32⟩
  | .hbm, ⟨84, _⟩ => ⟨S128x1, .bf16⟩
  | .hbm, ⟨85, _⟩ => ⟨S1x1, .f32⟩
  | .hbm, ⟨86, _⟩ => ⟨S200000x1, .f32⟩
  | .hbm, ⟨87, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x64, .bf16⟩
  | .local _ .vmem, ⟨18, _⟩ => ⟨S1x64, .f32⟩
  | .local _ .vmem, ⟨19, _⟩ => ⟨S128x64, .bf16⟩
  | .local _ .vmem, ⟨20, _⟩ => ⟨S5000x64, .f32⟩
  | .local _ .vmem, ⟨21, _⟩ => ⟨S5000x64, .f32⟩
  | .local _ .vmem, ⟨22, _⟩ => ⟨S10000x128, .f32⟩
  | .local _ .vmem, ⟨23, _⟩ => ⟨S10000x128, .f32⟩
  | .local _ .vmem, ⟨24, _⟩ => ⟨S128x1, .bf16⟩
  | .local _ .vmem, ⟨25, _⟩ => ⟨S1x1, .f32⟩
  | .local _ .vmem, ⟨26, _⟩ => ⟨S10000x1, .f32⟩
  | .local _ .vmem, ⟨27, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x64_S200000x128_d1 : Shape.Concatenates [S200000x64, S200000x64] S200000x128 1
  transposes_S1x128_S128x1_1_0 : S1x128.Transposes [1, 0] S128x1
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S200000x1_S200000 : S200000x1.ShapeCasts S200000
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S200000x1_S200000x64_1_0_n_n_0_1_164_wf : GatherDims.WF S100000x64 S200000x1 S200000x64 [1] [0] [] [0] [] 1 ![1, 64]
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S200000x128.size a
  hwx2_0 : ∀ i : grid2.Coords, EltTy.bits .f32 = 32 ∨ (Rect.block (s := S200000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .bf16 = 32 ∨ (Rect.block (s := S128x1) S128x1.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S200000x1.size a
  hwx2_3 : ∀ i : grid2.Coords, EltTy.bits .f32 = 32 ∨ (Rect.block (s := S200000x1) S10000x1.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v59) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x128 : Shape := ⟨2, ![200000, 128]⟩
abbrev S128x1 : Shape := ⟨2, ![128, 1]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S1x128, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S1x1600000, .i32⟩
  | .hbm, ⟨52, _⟩ => ⟨S1600000, .i32⟩
  | .hbm, ⟨53, _⟩ => ⟨S1x1600000, .i32⟩
  | .hbm, ⟨54, _⟩ => ⟨S1600000, .i32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S128x64, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S128x64, .f32⟩
  | .hbm, ⟨86, _⟩ => ⟨S100000x64, .f32⟩
  | .hbm, ⟨87, _⟩ => ⟨S100000x64, .f32⟩
  | .hbm, ⟨88, _⟩ => ⟨S1x200000, .i32⟩
  | .hbm, ⟨89, _⟩ => ⟨S200000, .i32⟩
  | .hbm, ⟨90, _⟩ => ⟨S_, .i32⟩
  | .hbm, ⟨91, _⟩ => ⟨S200000, .i32⟩
  | .hbm, ⟨92, _⟩ => ⟨S200000, .i1⟩
  | .hbm, ⟨93, _⟩ => ⟨S_, .i32⟩
  | .hbm, ⟨94, _⟩ => ⟨S200000, .i32⟩
  | .hbm, ⟨95, _⟩ => ⟨S200000, .i32⟩
  | .hbm, ⟨96, _⟩ => ⟨S200000, .i32⟩
  | .hbm, ⟨97, _⟩ => ⟨S200000x1, .i32⟩
  | .hbm, ⟨98, _⟩ => ⟨S200000x64, .f32⟩
  | .hbm, ⟨99, _⟩ => ⟨S1x200000, .i32⟩
  | .hbm, ⟨100, _⟩ => ⟨S200000, .i32⟩
  | .hbm, ⟨101, _⟩ => ⟨S_, .i32⟩
  | .hbm, ⟨102, _⟩ => ⟨S200000, .i32⟩
  | .hbm, ⟨103, _⟩ => ⟨S200000, .i1⟩
  | .hbm, ⟨104, _⟩ => ⟨S_, .i32⟩
  | .hbm, ⟨105, _⟩ => ⟨S200000, .i32⟩
  | .hbm, ⟨106, _⟩ => ⟨S200000, .i32⟩
  | .hbm, ⟨107, _⟩ => ⟨S200000, .i32⟩
  | .hbm, ⟨108, _⟩ => ⟨S200000x1, .i32⟩
  | .hbm, ⟨109, _⟩ => ⟨S200000x64, .f32⟩
  | .hbm, ⟨110, _⟩ => ⟨S200000x128, .f32⟩
  | .hbm, ⟨111, _⟩ => ⟨S128x1, .f32⟩
  | .hbm, ⟨112, _⟩ => ⟨S200000x1, .f32⟩
  | .hbm, ⟨113, _⟩ => ⟨S1x1, .f32⟩
  | .hbm, ⟨114, _⟩ => ⟨S200000x1, .f32⟩
  | .hbm, ⟨115, _⟩ => ⟨S200000x1, .f32⟩
  | .hbm, ⟨116, _⟩ => ⟨S200000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_10 : Ref sig .tc := ⟨.hbm, 90, rfl⟩
abbrev main_v65 : Ref sig .tc := ⟨.hbm, 91, rfl⟩
abbrev main_v66 : Ref sig .tc := ⟨.hbm, 92, rfl⟩
abbrev main_c_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_12 : Ref sig .tc := ⟨.hbm, 101, rfl⟩
abbrev main_v74 : Ref sig .tc := ⟨.hbm, 102, rfl⟩
abbrev main_v75 : Ref sig .tc := ⟨.hbm, 103, rfl⟩
abbrev main_c_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x64_S200000x64_S200000x128_d1 : Shape.Concatenates [S200000x64, S200000x64] S200000x128 1
  transposes_S1x128_S128x1_1_0 : S1x128.Transposes [1, 0] S128x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S200000x1_S200000x64_1_0_n_n_0_1_164_wf : GatherDims.WF S100000x64 S200000x1 S200000x64 [1] [0] [] [0] [] 1 ![1, 64]
  dot_S200000x128_S128x1_S200000x1_1_0_0_1_n_n_wf : DotDims.WF S200000x128 S128x1 S200000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KernelRun.lean ====
/-
  The idealized kernel program's run with its RESULT named.

  @main is seven segments: four stretches of host operations and three kernel launches between them. The contents of
  the TensorCore's buffers at each boundary are a fold through @main (`Gen.W0 … Gen.W7`): a stretch applies its
  operations, a launch leaves each of its arrays at what its pipeline's write-backs leave and every other buffer as it
  was. Every weakly fair execution terminates with every unscoped buffer at the last boundary's contents `Gen.W7`; read
  at the result buffer that is the result, read at an argument it is the argument as launched.
-/
import proofs.«159179_j79963701117112_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched: the launch over the program's segments, the last thread state read against
    the final state. -/
theorem run_result : θ_run defs (onTc (τ := τ) (main (F := F))) ⟨m, fun _ => 0, ρ⟩ (fun r => ∀ c : Dev nD,
      r.2.mem ((c.tc : Thread nD τ).loc main_v64) = W7 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v64 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.RunValue

end
-- ==== Proof.Stretch0.lean ====
/-
  The buffers the first kernel launch finds, as functions of the program's arguments.

  The host operations before the first launch compute, from the edge list: the source and destination node of every
  edge (the two rows of the edge list), the sums of the source nodes' features over each destination's incoming edges
  (a row gather then an accumulating row scatter), the in-degrees (an accumulating scatter of ones) reshaped to a
  column; and from the weights: their transposes and the bias as a row. Each is, term for term, a stage of the
  reference program (its gather, its two scatters, its transposes), which is how it is named here; an argument no
  operation writes is found as launched.
-/
import proofs.«159179_j79963701117112_2_alg».proof.Proof.Gen.KernelIdeal.Frame
import proofs.«159179_j79963701117112_2_alg».proof.Proof.Gen.ReferenceIdeal.Read

set_option maxRecDepth 16384
set_option quotPrecheck false

noncomputable section

namespace Cert.KernelIdeal.HostValue

open Cert.KernelIdeal Cert.KernelIdeal.Gen
open Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)

/-- The neighbour sums of the node features. -/
theorem entry0_sums : V1 m ρ c main_v18 = val_main_v13 (F := Ideal) a0 a1 := by
  show StableHlo.after hostOps0 (W0 m ρ c) (Proc.devRef .tc main_v18) = _
  after_results_simp <;> rfl

/-- The in-degrees, as a column. -/
theorem entry0_deg : V1 m ρ c main_v8 = shapeCast S100000x1 (val_main_v17 (F := Ideal) a1) shapeCasts_S100000_S100000x1 := by
  show StableHlo.after hostOps0 (W0 m ρ c) (Proc.devRef .tc main_v8) = _
  after_results_simp <;> rfl

/-- The node features. -/
theorem entry0_x : V1 m ρ c main_arg0 = a0 := by
  show StableHlo.after hostOps0 (W0 m ρ c) (Proc.devRef .tc main_arg0) = _
  after_results_simp <;> rfl

/-- The first layer's neighbour weights, transposed. -/
theorem entry0_wl : V1 m ρ c main_v20 = val_main_v23 (F := Ideal) a3 := by
  show StableHlo.after hostOps0 (W0 m ρ c) (Proc.devRef .tc main_v20) = _
  after_results_simp <;> rfl

/-- The first layer's bias, as a row. -/
theorem entry0_b : V1 m ρ c main_v23 = shapeCast S1x128 a4 shapeCasts_S128_S1x128 := by
  show StableHlo.after hostOps0 (W0 m ρ c) (Proc.devRef .tc main_v23) = _
  after_results_simp <;> rfl

/-- The first layer's self weights, transposed. -/
theorem entry0_wr : V1 m ρ c main_v22 = val_main_v28 (F := Ideal) a5 := by
  show StableHlo.after hostOps0 (W0 m ρ c) (Proc.devRef .tc main_v22) = _
  after_results_simp <;> rfl

/-- Every edge's source node. -/
theorem entry0_src : V1 m ρ c main_v1 = val_main_v1 (F := Ideal) a1 := by
  show StableHlo.after hostOps0 (W0 m ρ c) (Proc.devRef .tc main_v1) = _
  after_results_simp <;> rfl

/-- Every edge's destination node. -/
theorem entry0_dst : V1 m ρ c main_v3 = val_main_v3 (F := Ideal) a1 := by
  show StableHlo.after hostOps0 (W0 m ρ c) (Proc.devRef .tc main_v3) = _
  after_results_simp <;> rfl

/-! The arguments the later stretches read are as launched. -/

theorem entry0_arg2 : V1 m ρ c main_arg2 = a2 := by
  show StableHlo.after hostOps0 (W0 m ρ c) (Proc.devRef .tc main_arg2) = _
  after_results_simp <;> rfl
theorem entry0_arg6 : V1 m ρ c main_arg6 = a6 := by
  show StableHlo.after hostOps0 (W0 m ρ c) (Proc.devRef .tc main_arg6) = _
  after_results_simp <;> rfl
theorem entry0_arg7 : V1 m ρ c main_arg7 = a7 := by
  show StableHlo.after hostOps0 (W0 m ρ c) (Proc.devRef .tc main_arg7) = _
  after_results_simp <;> rfl
theorem entry0_arg8 : V1 m ρ c main_arg8 = a8 := by
  show StableHlo.after hostOps0 (W0 m ρ c) (Proc.devRef .tc main_arg8) = _
  after_results_simp <;> rfl
theorem entry0_arg9 : V1 m ρ c main_arg9 = a9 := by
  show StableHlo.after hostOps0 (W0 m ρ c) (Proc.devRef .tc main_arg9) = _
  after_results_simp <;> rfl
theorem entry0_arg10 : V1 m ρ c main_arg10 = a10 := by
  show StableHlo.after hostOps0 (W0 m ρ c) (Proc.devRef .tc main_arg10) = _
  after_results_simp <;> rfl

end Cert.KernelIdeal.HostValue

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«159179_j79963701117112_2_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.LibGatherScatterRows.lean ====
import Idealize.ShloMosaic.Lib.ValueIdx

/-!
# Gather and scatter of whole rows, and gather of flat entries

Three literal records of StableHLO gather / scatter dimension numbers over generic extents, with what the
operation reads or writes at an index: taking whole rows of a matrix, taking entries of a flat array, and
scattering whole rows into a matrix.
-/

noncomputable section

namespace Idealize.ShloMosaic.ValueIdx

open Idealize.ShloMosaic

/-! ## Scattering whole rows: operand `[N, C]`, scatter indices `[E, 1]`, updates `[E, C]` -/

section ScatterRows

/-- The dimension numbers for scattering rows: update window axis `1`, inserted window axis `0`, the single
    component of a scatter index names operand axis `0`, the index vector on axis `1`. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update element `j` that lands on operand element `i` has its scatter index `idx[j₀, 0]`, read signed and
    not clamped, equal to the row `i₀`. -/
theorem scatter_rows_row {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowsScatterDims N E C wf).resultIdx? j idx = some i) :
    (idx (ix2 (j 0) ⟨0, Nat.one_pos⟩)).toInt = ((i 0).val : Int) := by
  unfold ScatterDims.resultIdx? at h
  split at h
  · rename_i hall
    have h0 : ((rowsScatterDims N E C wf).start j idx 0 + (rowsScatterDims N E C wf).window j 0).toNat = (i 0).val :=
      congrArg (fun f : (⟨2, ![N, C]⟩ : Shape).Idx => (f 0).val) (Option.some.inj h)
    have hw : (rowsScatterDims N E C wf).window j 0 = 0 := by
      unfold ScatterDims.window
      rw [dif_neg]
      simp [ScatterDims.sKept, Shape.kept, List.mem_filter]
    have hs : (rowsScatterDims N E C wf).start j idx 0 = (idx (ix2 (j 0) ⟨0, Nat.one_pos⟩)).toInt := by
      unfold ScatterDims.start
      rw [dif_pos (show (0 : Fin 2) ∈ (rowsScatterDims N E C wf).scatterDimsToOperandDims from
        List.mem_singleton.mpr rfl)]
      have hsi : (rowsScatterDims N E C wf).siIdx j
          ⟨List.idxOf (0 : Fin 2) (rowsScatterDims N E C wf).scatterDimsToOperandDims,
            List.idxOf_lt_length_iff.2 (List.mem_singleton.mpr rfl)⟩ = ix2 (j 0) ⟨0, Nat.one_pos⟩ := by
        funext b; refine Fin.ext ?_
        match b with
        | ⟨0, _⟩ => rfl
        | ⟨1, _⟩ => rfl
      rw [hsi]
      rfl
    have hnn := (hall 0).1
    rw [hs, hw] at hnn h0
    simp only [Nat.cast_zero, Int.add_zero] at hnn h0
    rw [← h0, Int.toNat_of_nonneg hnn]
  · exact absurd h (by simp)

end ScatterRows

/-! ## Taking whole rows: operand `[N, C]`, start indices `[E, 1]`, result `[E, C]` -/

section GatherRows
variable {α : Type}

/-- The dimension numbers for taking rows: offset axis `1`, collapsed operand axis `0`, the single component of a
    start index names operand axis `0`, the index vector on axis `1`, slices of one row by all `C` columns. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result element `(e, c)` of the row gather is the operand at row `idx[e, 0]`, read signed and clamped into
    `[0, N − 1]`, and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGatherDims N E C wf) x idx (ix2 e c) =
      x (ix2 ⟨min (idx (ix2 e ⟨0, Nat.one_pos⟩)).toInt.toNat (N - 1), by omega⟩ c) := by
  have h0 : ((rowsGatherDims N E C wf).operandIdx (ix2 e c) idx (0 : Fin 2)).val =
      min (idx (ix2 e ⟨0, Nat.one_pos⟩)).toInt.toNat (N - 1) := by
    show (rowsGatherDims N E C wf).start (ix2 e c) idx 0 + (rowsGatherDims N E C wf).batchCoord (ix2 e c) 0
      + (rowsGatherDims N E C wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e c)
        ⟨List.idxOf (0 : Fin 2) (rowsGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : ((rowsGatherDims N E C wf).operandIdx (ix2 e c) idx (1 : Fin 2)).val = c.val := by
    show (rowsGatherDims N E C wf).start (ix2 e c) idx 1 + (rowsGatherDims N E C wf).batchCoord (ix2 e c) 1
      + (rowsGatherDims N E C wf).offCoord (ix2 e c) 1 = _
    have hst : (rowsGatherDims N E C wf).start (ix2 e c) idx (1 : Fin 2) = 0 := by
      unfold GatherDims.start
      rw [dif_neg (fun h => absurd (show (1 : Nat) = 0 from congrArg Fin.val (List.mem_singleton.mp h)) Nat.one_ne_zero)]
    have hk : (1 : Fin 2) ∈ (rowsGatherDims N E C wf).sKept :=
      (GatherDims.mem_sKept _ _).mpr ⟨(fun h => absurd (show (1 : Nat) = 0 from congrArg Fin.val (List.mem_singleton.mp h)) Nat.one_ne_zero), List.not_mem_nil⟩
    have hoff : (rowsGatherDims N E C wf).offCoord (ix2 e c) (1 : Fin 2) = c.val := by
      unfold GatherDims.offCoord
      rw [dif_pos hk]
      rfl
    rw [GatherDims.batchCoord_eq_zero _ _ _ List.not_mem_nil, hst, hoff, Nat.add_zero, Nat.zero_add]
  unfold Host.gather
  congr 1
  funext a
  refine Fin.ext ?_
  match a with
  | ⟨0, _⟩ => exact h0
  | ⟨1, _⟩ => exact h1

end GatherRows

/-! ## Taking entries of a flat array: operand `[N]`, start indices `[E, 1]`, result `[E]` -/

section GatherFlat
variable {α : Type}

/-- The dimension numbers for taking entries: no offset axis, collapsed operand axis `0`, the single component of
    a start index names operand axis `0`, the index vector on axis `1`, slices of one entry. -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` of the flat gather is the operand at position `idx[e, 0]`, read signed and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e) =
      x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (flatGatherDims N E wf).start (ix1 e) idx 0 + (flatGatherDims N E wf).batchCoord (ix1 e) 0
    + (flatGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx (ix1 e)
      ⟨List.idxOf (0 : Fin 1) (flatGatherDims N E wf).startIndexMap,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end GatherFlat

end Idealize.ShloMosaic.ValueIdx

end
-- ==== Proof.LibBroadcastEntry.lean ====
/-
  Broadcasts of small shapes read at one entry, for the shapes a dense layer with a per-row factor and a per-column
  bias meets:

  * a column `[a, 1]` broadcast over the columns of `[a, b]` — by `vector.broadcast` and by the host's
    `broadcast_in_dim` along `[0, 1]` — reads, at `(p, c)`, the column's entry `(p, 0)`;
  * a row `[1, b]` broadcast over the rows of `[a, b]` by `broadcast_in_dim` along `[0, 1]` reads, at `(p, c)`, the
    row's entry `(0, c)`;
  * a vector `[b]` placed as the row of `[1, b]` by `broadcast_in_dim` along `[1]` reads, at `(u, c)`, the vector's
    entry `c`;
  * a scalar broadcast to any shape reads the scalar everywhere.
-/
import Idealize.ShloMosaic.Lib.ValueLayout
import Idealize.ShloMosaic.Lib.Pipeline.Value

namespace Idealize.ShloMosaic.ValueIdx

variable {α : Type}

/-- A `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along `[0, 1]` to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` row along `[0, 1]` to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's placing of a `[b]` vector as the row of `[1, b]` (along `[1]`) reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The host's broadcast of a scalar to any shape reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Idealize.ShloMosaic.ValueIdx
-- ==== Proof.LibDenseRows.lean ====
/-
  Dense layers on extended-real matrices indexed by literal rank-2 shapes, and their row-locality.

  * `mm a b`: rows times columns, entry `(p, q)` is `Σ_k a[p, k] · b[k, q]`; `dense x W b`: `x · W` plus the bias row `b` (a
    `[1, N]` matrix) added to every row; `silu z = z · logistic z`; `mlp x W₁ b₁ W₂ b₂ = dense (silu ∘ dense x W₁ b₁) W₂ b₂`;
    `row v`: a vector as a one-row matrix.
  * ROW-LOCALITY (`mm_rows`, `dense_rows`, `mlp_rows`, `mm_at`): row `p` of the result depends on row `p` of the left
    operand only — so a tile of rows is computed from the same tile of the operand, and a selection of rows may be
    taken before or after a product: `mm_gather_rows`, `(h · W)[r] = h[r] · W` for a row gather with any start indices.
  * A matrix-unit product into a zero accumulator (`matmul_eq_mm`) and the host's general product (`dotGeneral_eq_mm`,
    `host_dot_eq_mm`) are both `mm`; a kernel body's dense layer over a broadcast bias row is `dense` (`dense_vec`), its
    `x · logistic x` is `silu` (`silu_vec`); the host's dense layer with the bias vector broadcast twice is `dense … (row b)`
    (`host_dense`), jax's expansion `z · (1 / (1 + e^(−z)))` is `silu` (`host_silu`), a bias vector reshaped to one row is
    `row` (`shapeCast_row`). Generic extents throughout.
-/
import proofs.«159179_j79963701117112_2_alg».proof.Proof.LibDotGeneralEntry
import proofs.«159179_j79963701117112_2_alg».proof.Proof.LibGatherScatterRows
import proofs.«159179_j79963701117112_2_alg».proof.Proof.LibBroadcastEntry

noncomputable section

open scoped BigOperators

namespace Cert.Spec

open Idealize.ShloMosaic Idealize.ShloMosaic.ValueIdx

/-- An `M × N` matrix of extended reals, indexed as the printed programs index a rank-2 array. -/
abbrev Mat (M N : Nat) : Type := (⟨2, ![M, N]⟩ : Shape).Idx → EReal

/-- Rows times columns. -/
def mm {M K N : Nat} (a : Mat M K) (b : Mat K N) : Mat M N :=
  fun i => ∑ k : Fin K, a (ix2 (i 0) k) * b (ix2 k (i 1))

theorem mm_ix2 {M K N : Nat} (a : Mat M K) (b : Mat K N) (p : Fin M) (q : Fin N) :
    mm a b (ix2 p q) = ∑ k : Fin K, a (ix2 p k) * b (ix2 k q) := rfl

/-- The sigmoid-weighted unit. -/
def silu (z : EReal) : EReal := z * Ideal.logistic z

/-- A dense layer: the product plus a bias row. -/
def dense {M K N : Nat} (x : Mat M K) (W : Mat K N) (b : Mat 1 N) : Mat M N :=
  fun i => mm x W i + b (ix2 (0 : Fin 1) (i 1))

/-- Two dense layers with the sigmoid-weighted unit between them. -/
def mlp {M K H N : Nat} (x : Mat M K) (W₁ : Mat K H) (b₁ : Mat 1 H) (W₂ : Mat H N) (b₂ : Mat 1 N) : Mat M N :=
  dense (fun i => silu (dense x W₁ b₁ i)) W₂ b₂

/-- A vector laid out as a one-row matrix. -/
def row {N : Nat} (v : (⟨1, ![N]⟩ : Shape).Idx → EReal) : Mat 1 N := fun j => v (ix1 (j 1))

/-! ## Row-locality -/

theorem mm_rows {M M' K N : Nat} (a : Mat M K) (a' : Mat M' K) (b : Mat K N) (p : Fin M) (p' : Fin M') (q : Fin N)
    (h : ∀ k, a (ix2 p k) = a' (ix2 p' k)) : mm a b (ix2 p q) = mm a' b (ix2 p' q) := by
  rw [mm_ix2, mm_ix2]
  exact Finset.sum_congr rfl fun k _ => by rw [h k]

theorem dense_rows {M M' K N : Nat} (x : Mat M K) (x' : Mat M' K) (W : Mat K N) (b : Mat 1 N) (p : Fin M) (p' : Fin M')
    (q : Fin N) (h : ∀ k, x (ix2 p k) = x' (ix2 p' k)) : dense x W b (ix2 p q) = dense x' W b (ix2 p' q) := by
  show mm x W (ix2 p q) + _ = mm x' W (ix2 p' q) + _
  rw [mm_rows x x' W p p' q h]
  rfl

theorem mlp_rows {M M' K H N : Nat} (x : Mat M K) (x' : Mat M' K) (W₁ : Mat K H) (b₁ : Mat 1 H) (W₂ : Mat H N)
    (b₂ : Mat 1 N) (p : Fin M) (p' : Fin M') (q : Fin N) (h : ∀ k, x (ix2 p k) = x' (ix2 p' k)) :
    mlp x W₁ b₁ W₂ b₂ (ix2 p q) = mlp x' W₁ b₁ W₂ b₂ (ix2 p' q) :=
  dense_rows _ _ W₂ b₂ p p' q fun k => by
    show silu (dense x W₁ b₁ (ix2 p k)) = silu (dense x' W₁ b₁ (ix2 p' k))
    rw [dense_rows x x' W₁ b₁ p p' k h]

/-! ## Row-locality, between a tile's entry and the array's entry it sits at -/

theorem mm_at {B M K N : Nat} (xb : Mat B K) (x : Mat M K) (W : Mat K N) (j : (⟨2, ![B, N]⟩ : Shape).Idx)
    (i : (⟨2, ![M, N]⟩ : Shape).Idx) (hq : i 1 = j 1) (hx : ∀ k, xb (ix2 (j 0) k) = x (ix2 (i 0) k)) :
    mm xb W j = mm x W i := by
  obtain ⟨p, q, rfl⟩ : ∃ (p : Fin B) (q : Fin N), j = ix2 p q := ⟨j 0, j 1, eq_ix2 j⟩
  obtain ⟨p', q', rfl⟩ : ∃ (p' : Fin M) (q' : Fin N), i = ix2 p' q' := ⟨i 0, i 1, eq_ix2 i⟩
  have e : q' = q := hq
  subst e
  exact mm_rows xb x W p p' q' hx

/-! ## The two matrix products of the programs are `mm` -/

/-- The matrix unit's product of two matrices into the zero accumulator. -/
theorem matmul_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂) :
    FloatOps.matmul D prec a b (constant ⟨2, ![M, N]⟩ .f32 0x00000000#32) = mm a b := by
  funext i
  rw [eq_ix2 i]
  exact Ideal.matmul_rows_cols D hlb hln hlc hrb hrn hrc prec a b (i 0) (i 1)

/-- The host's general product of two matrices. -/
theorem dotGeneral_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁)
    (b : FVec Ideal ⟨2, ![K, N]⟩ φ₂) :
    FloatOps.dotGeneral D prec sched a b = mm a b := by
  funext i
  rw [eq_ix2 i]
  exact Ideal.dotGeneral_rows_cols D hlb hln hlc hrb hrn hrc prec sched a b (i 0) (i 1)

/-- The same, in the spelling a printed host line has. -/
theorem host_dot_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (a : FVec Ideal ⟨2, ![M, K]⟩ φ₁) (b : FVec Ideal ⟨2, ![K, N]⟩ φ₂) :
    Host.dotGeneral D none a b = mm a b :=
  dotGeneral_eq_mm D hlb hln hlc hrb hrn hrc none .single a b

/-! ## Selecting rows commutes with a product on the right -/

/-- Rows taken out of a product are the product of the rows taken: `(h · W)[r(e)] = (h[r(·)] · W)[e]`, whatever the
    row selection `r` the start indices denote (read signed, clamped into the table). -/
theorem mm_gather_rows {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (h : Mat N C) (W : Mat C C') (idx : IVec ⟨2, ![E, 1]⟩ w) :
    Host.gather (rowsGatherDims N E C' wf') (mm h W) idx = mm (Host.gather (rowsGatherDims N E C wf) h idx) W := by
  funext i
  obtain ⟨e, c, rfl⟩ : ∃ (e : Fin E) (c : Fin C'), i = ix2 e c := ⟨i 0, i 1, eq_ix2 i⟩
  rw [gather_rows_apply hN wf' (mm h W) idx e c, mm_ix2, mm_ix2]
  exact Finset.sum_congr rfl fun k _ => by rw [gather_rows_apply hN wf h idx e k]

/-! ## A kernel body's dense layer and its sigmoid-weighted unit, as whole tiles -/

/-- The matrix unit's product into the zero accumulator plus a bias row broadcast over the tile's rows. -/
theorem dense_vec {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) :
    addf (FloatOps.matmul D none x W (constant ⟨2, ![M, N]⟩ .f32 0x00000000#32)) (broadcastTo ⟨2, ![M, N]⟩ b hb)
      = dense x W b := by
  rw [matmul_eq_mm D hlb hln hlc hrb hrn hrc]
  funext i
  obtain ⟨p, q, rfl⟩ : ∃ (p : Fin M) (q : Fin N), i = ix2 p q := ⟨i 0, i 1, eq_ix2 i⟩
  show mm x W (ix2 p q) + broadcastTo ⟨2, ![M, N]⟩ b hb (ix2 p q) = mm x W (ix2 p q) + b (ix2 (0 : Fin 1) q)
  rw [broadcastTo_1b_ab_apply]

/-- A tile times its logistic, entry by entry. -/
theorem silu_vec {s : Shape} (z : FVec Ideal s .f32) : mulf z (logistic z) = fun i => silu (z i) := rfl

/-! ## The reference's spelling of the sigmoid-weighted unit and of a bias -/

/-- `1` as the programs write it. -/
theorem ofBits_one : Ideal.ofBits .f32 0x3F800000#32 = (1 : EReal) := by
  simp [Ideal.ofBits, Ideal.ieee, -EReal.coe_mul]; norm_num

/-- jax's expansion `z · (1 / (1 + e^(−z)))` on the host is the sigmoid-weighted unit. -/
theorem host_silu {s : Shape} (z : FVec Ideal s .f32) (h1 : (⟨0, ![]⟩ : Shape).BroadcastsInDim s ![]) :
    mulf z (Host.divf (broadcastInDim s ![] h1 (constant (F := Ideal) ⟨0, ![]⟩ .f32 0x3F800000#32))
      (addf (broadcastInDim s ![] h1 (constant (F := Ideal) ⟨0, ![]⟩ .f32 0x3F800000#32)) (Host.exp (Host.negf z))))
      = fun i => silu (z i) := by
  funext i
  have e1 : broadcastInDim s ![] h1 (constant (F := Ideal) ⟨0, ![]⟩ .f32 0x3F800000#32) i = (1 : EReal) := by
    rw [broadcastInDim_scalar_apply]
    exact ofBits_one
  show z i * Ideal.div (broadcastInDim s ![] h1 (constant (F := Ideal) ⟨0, ![]⟩ .f32 0x3F800000#32) i)
      (broadcastInDim s ![] h1 (constant (F := Ideal) ⟨0, ![]⟩ .f32 0x3F800000#32) i + Ideal.exp (-(z i))) = silu (z i)
  rw [e1]
  rfl

/-- The host's dense layer: the general product plus the bias vector broadcast as a row over every row. -/
theorem host_dense {M K N : Nat} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D none x W) (broadcastInDim ⟨2, ![M, N]⟩ ![0, 1] h2 (broadcastInDim ⟨2, ![1, N]⟩ ![1] h1 b))
      = dense x W (row b) := by
  funext i
  show FloatOps.dotGeneral D none .single x W i + _ = mm x W i + row b (ix2 (0 : Fin 1) (i 1))
  rw [dotGeneral_eq_mm D hlb hln hlc hrb hrn hrc]
  refine congrArg (mm x W i + ·) ?_
  obtain ⟨p, q, rfl⟩ : ∃ (p : Fin M) (q : Fin N), i = ix2 p q := ⟨i 0, i 1, eq_ix2 i⟩
  rw [broadcastInDim_1b_ab_apply, broadcastInDim_b_1b_apply]
  rfl

/-- A bias vector reshaped to one row is that row. -/
theorem shapeCast_row {N : Nat} (b : (⟨1, ![N]⟩ : Shape).Idx → EReal) (h : (⟨1, ![N]⟩ : Shape).ShapeCasts ⟨2, ![1, N]⟩) :
    shapeCast ⟨2, ![1, N]⟩ b h = row b := by
  funext j
  obtain ⟨u, q, rfl⟩ : ∃ (u : Fin 1) (q : Fin N), j = ix2 u q := ⟨j 0, j 1, eq_ix2 j⟩
  rw [shapeCast_a_1a_apply]
  rfl

end Cert.Spec

end
-- ==== Proof.LibColumnLayout.lean ====
/-
  A vector `[a]` placed as the one column of `[a, 1]`, read at one entry: by a reshape (a shape cast) and by the
  host's `broadcast_in_dim` along `[0]`. Either way entry `(p, u)` is the vector's entry `p`, whatever the unit
  coordinate `u`. Generic extent and element type.
-/
import Idealize.ShloMosaic.Lib.ValueLayout
import Idealize.ShloMosaic.Lib.Pipeline.Value

namespace Idealize.ShloMosaic.ValueIdx

variable {α : Type}

/-- An `[a]` array cast to `[a, 1]` reads, at `(p, u)`, the operand at `p`: the row-major position of `(p, u)` is
    `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's placing of an `[a]` vector as the column of `[a, 1]` (along `[0]`) reads, at `(p, u)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

end Idealize.ShloMosaic.ValueIdx
-- ==== Proof.LibSageLayer.lean ====
/-
  One GraphSAGE layer on extended-real matrices, and the two spellings the programs give it.

  A layer takes the neighbour sums `S` (an `N × C` matrix), the in-degrees `d` (an `N × 1` column), the node features
  `x`, two weight matrices `Wl`, `Wr` (`C × C'`, already transposed) and a bias row `b`:

      sage S d x Wl b Wr = (S / max(d, 1)) · Wl + b + x · Wr,

  the quotient taken row by row (row `p` of `S` divided by `max(d[p], 1)`), the bias added to every row. Row `p` of the
  result depends on row `p` of `S`, `d` and `x` only (`sage_rows`, `sage_at`), so a tile of rows is computed from the same
  tile of the operands.

  * `sage_tile`: a tile as a kernel body writes it — the degree column clamped and broadcast over the columns, a
    quotient, two matrix-unit products into zero accumulators, the bias row broadcast over the rows.
  * `sage_host`: the whole array as the host writes it — the degree VECTOR clamped, placed as a column and broadcast,
    a quotient, two general products, the bias vector broadcast twice.
  * `relu`, in the two spellings of its zero; a vector reshaped to a column is `col`.
-/
import proofs.«159179_j79963701117112_2_alg».proof.Proof.LibDenseRows
import proofs.«159179_j79963701117112_2_alg».proof.Proof.LibColumnLayout

noncomputable section

open scoped BigOperators

namespace Cert.Spec

open Idealize.ShloMosaic Idealize.ShloMosaic.ValueIdx

/-- `1` and `0` as the programs write them. -/
abbrev one32 : EReal := Ideal.ofBits .f32 0x3F800000#32
abbrev zero32 : EReal := Ideal.ofBits .f32 0x00000000#32

/-- Each row of `S` divided by its clamped degree `max(d[p], 1)`. -/
def meanRows {N C : Nat} (S : Mat N C) (d : Mat N 1) : Mat N C :=
  fun i => Ideal.div (S i) (max (d (ix2 (i 0) (0 : Fin 1))) one32)

/-- One layer: the mean of the neighbours through `Wl`, plus the bias, plus the node itself through `Wr`. -/
def sage {N C C' : Nat} (S : Mat N C) (d : Mat N 1) (x : Mat N C) (Wl : Mat C C') (b : Mat 1 C') (Wr : Mat C C') :
    Mat N C' :=
  fun i => dense (meanRows S d) Wl b i + mm x Wr i

/-- The rectifier. -/
def relu (z : EReal) : EReal := max z zero32

/-- A vector laid out as a one-column matrix. -/
def col {N : Nat} (v : (⟨1, ![N]⟩ : Shape).Idx → EReal) : Mat N 1 := fun i => v (ix1 (i 0))

/-! ## Row-locality -/

theorem sage_rows {N N' C C' : Nat} (S : Mat N C) (S' : Mat N' C) (d : Mat N 1) (d' : Mat N' 1) (x : Mat N C)
    (x' : Mat N' C) (Wl : Mat C C') (b : Mat 1 C') (Wr : Mat C C') (p : Fin N) (p' : Fin N') (q : Fin C')
    (hS : ∀ k, S (ix2 p k) = S' (ix2 p' k)) (hd : d (ix2 p (0 : Fin 1)) = d' (ix2 p' (0 : Fin 1)))
    (hx : ∀ k, x (ix2 p k) = x' (ix2 p' k)) :
    sage S d x Wl b Wr (ix2 p q) = sage S' d' x' Wl b Wr (ix2 p' q) := by
  show dense (meanRows S d) Wl b (ix2 p q) + mm x Wr (ix2 p q)
      = dense (meanRows S' d') Wl b (ix2 p' q) + mm x' Wr (ix2 p' q)
  rw [dense_rows (meanRows S d) (meanRows S' d') Wl b p p' q (fun k => by
        show Ideal.div (S (ix2 p k)) (max (d (ix2 p (0 : Fin 1))) one32)
          = Ideal.div (S' (ix2 p' k)) (max (d' (ix2 p' (0 : Fin 1))) one32)
        rw [hS k, hd]),
    mm_rows x x' Wr p p' q hx]

/-- Between a tile's entry and the array's entry it sits at. -/
theorem sage_at {B N C C' : Nat} (Sb : Mat B C) (db : Mat B 1) (xb : Mat B C) (S : Mat N C) (d : Mat N 1) (x : Mat N C)
    (Wl : Mat C C') (b : Mat 1 C') (Wr : Mat C C') (j : (⟨2, ![B, C']⟩ : Shape).Idx) (i : (⟨2, ![N, C']⟩ : Shape).Idx)
    (hq : i 1 = j 1) (hS : ∀ k, Sb (ix2 (j 0) k) = S (ix2 (i 0) k))
    (hd : db (ix2 (j 0) (0 : Fin 1)) = d (ix2 (i 0) (0 : Fin 1))) (hx : ∀ k, xb (ix2 (j 0) k) = x (ix2 (i 0) k)) :
    sage Sb db xb Wl b Wr j = sage S d x Wl b Wr i := by
  obtain ⟨p, q, rfl⟩ : ∃ (p : Fin B) (q : Fin C'), j = ix2 p q := ⟨j 0, j 1, eq_ix2 j⟩
  obtain ⟨p', q', rfl⟩ : ∃ (p' : Fin N) (q' : Fin C'), i = ix2 p' q' := ⟨i 0, i 1, eq_ix2 i⟩
  have e : q' = q := hq
  subst e
  exact sage_rows Sb S db d xb x Wl b Wr p p' q' hS hd hx

/-- The same for a dense layer alone. -/
theorem dense_at {B N K C' : Nat} (xb : Mat B K) (x : Mat N K) (W : Mat K C') (b : Mat 1 C')
    (j : (⟨2, ![B, C']⟩ : Shape).Idx) (i : (⟨2, ![N, C']⟩ : Shape).Idx) (hq : i 1 = j 1)
    (hx : ∀ k, xb (ix2 (j 0) k) = x (ix2 (i 0) k)) : dense xb W b j = dense x W b i := by
  obtain ⟨p, q, rfl⟩ : ∃ (p : Fin B) (q : Fin C'), j = ix2 p q := ⟨j 0, j 1, eq_ix2 j⟩
  obtain ⟨p', q', rfl⟩ : ∃ (p' : Fin N) (q' : Fin C'), i = ix2 p' q' := ⟨i 0, i 1, eq_ix2 i⟩
  have e : q' = q := hq
  subst e
  exact dense_rows xb x W b p p' q' hx

/-! ## A kernel body's tile -/

/-- The clamped degree column broadcast over the columns divides the sums row by row. -/
theorem divf_column {M K : Nat} (S : FVec Ideal ⟨2, ![M, K]⟩ .f32) (d : FVec Ideal ⟨2, ![M, 1]⟩ .f32)
    (hd : (⟨2, ![M, 1]⟩ : Shape).Broadcasts ⟨2, ![M, K]⟩) :
    divf S (broadcastTo ⟨2, ![M, K]⟩ (maximumf d (broadcast ⟨2, ![M, 1]⟩ (Scalar.ofBits (F := Ideal) .f32 0x3F800000#32))) hd)
      = meanRows S d := by
  funext i
  obtain ⟨p, k, rfl⟩ : ∃ (p : Fin M) (k : Fin K), i = ix2 p k := ⟨i 0, i 1, eq_ix2 i⟩
  rw [divf_apply, broadcastTo_a1_ab_apply]
  rfl

/-- A tile of a layer as a kernel body computes it. -/
theorem sage_tile {M K N : Nat} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (S x : FVec Ideal ⟨2, ![M, K]⟩ .f32) (d : FVec Ideal ⟨2, ![M, 1]⟩ .f32) (Wl Wr : FVec Ideal ⟨2, ![K, N]⟩ .bf16)
    (b : FVec Ideal ⟨2, ![1, N]⟩ .f32) (hd : (⟨2, ![M, 1]⟩ : Shape).Broadcasts ⟨2, ![M, K]⟩)
    (hb : (⟨2, ![1, N]⟩ : Shape).Broadcasts ⟨2, ![M, N]⟩) (hbits : FTy.bf16.bits < FTy.f32.bits) :
    addf (addf (FloatOps.matmul D none
        (truncf .bf16 (divf S (broadcastTo ⟨2, ![M, K]⟩ (maximumf d (broadcast ⟨2, ![M, 1]⟩ (Scalar.ofBits (F := Ideal) .f32 0x3F800000#32))) hd)) hbits)
        Wl (constant ⟨2, ![M, N]⟩ .f32 0x00000000#32)) (broadcastTo ⟨2, ![M, N]⟩ b hb))
      (FloatOps.matmul D none (truncf .bf16 x hbits) Wr (constant ⟨2, ![M, N]⟩ .f32 0x00000000#32))
      = sage S d x Wl b Wr := by
  rw [divf_column S d hd]
  show addf (addf (FloatOps.matmul D none (meanRows S d : FVec Ideal ⟨2, ![M, K]⟩ .f32) Wl (constant ⟨2, ![M, N]⟩ .f32 0x00000000#32))
        (broadcastTo ⟨2, ![M, N]⟩ b hb))
      (FloatOps.matmul D none x Wr (constant ⟨2, ![M, N]⟩ .f32 0x00000000#32)) = _
  rw [dense_vec D hlb hln hlc hrb hrn hrc, matmul_eq_mm D hlb hln hlc hrb hrn hrc]
  rfl

/-- The rectifier over a tile, the zero splat from a scalar. -/
theorem relu_tile {s : Shape} (z : FVec Ideal s .f32) :
    maximumf z (broadcast s (Scalar.ofBits (F := Ideal) .f32 0x00000000#32)) = fun i => relu (z i) := rfl

/-! ## The host's whole array -/

/-- The clamped degree vector, placed as a column and broadcast over the columns, divides the sums row by row. -/
theorem hostDivf_column {N C : Nat} (S : FVec Ideal ⟨2, ![N, C]⟩ .f32) (dv : FVec Ideal ⟨1, ![N]⟩ .f32)
    (h0 : (⟨0, ![]⟩ : Shape).BroadcastsInDim ⟨1, ![N]⟩ ![])
    (h1 : (⟨1, ![N]⟩ : Shape).BroadcastsInDim ⟨2, ![N, 1]⟩ ![0])
    (h2 : (⟨2, ![N, 1]⟩ : Shape).BroadcastsInDim ⟨2, ![N, C]⟩ ![0, 1]) :
    Host.divf S (broadcastInDim ⟨2, ![N, C]⟩ ![0, 1] h2 (broadcastInDim ⟨2, ![N, 1]⟩ ![0] h1
        (maximumf dv (broadcastInDim ⟨1, ![N]⟩ ![] h0 (constant (F := Ideal) ⟨0, ![]⟩ .f32 0x3F800000#32)))))
      = meanRows S (col dv) := by
  funext i
  obtain ⟨p, k, rfl⟩ : ∃ (p : Fin N) (k : Fin C), i = ix2 p k := ⟨i 0, i 1, eq_ix2 i⟩
  show Ideal.div (S (ix2 p k)) _ = Ideal.div (S (ix2 p k)) (max (dv (ix1 p)) one32)
  rw [broadcastInDim_a1_ab_apply, broadcastInDim_a_a1_apply, maximumf_apply, broadcastInDim_scalar_apply]
  rfl

/-- A layer as the host computes it. -/
theorem sage_host {N C C' : Nat} (D : DotDims ⟨2, ![N, C]⟩ ⟨2, ![C, C']⟩ ⟨2, ![N, C']⟩)
    (hlb : D.lhsBatch = []) (hln : D.lhsNonContracting = [0]) (hlc : D.lhsContracting = [1])
    (hrb : D.rhsBatch = []) (hrn : D.rhsNonContracting = [1]) (hrc : D.rhsContracting = [0])
    (S x : FVec Ideal ⟨2, ![N, C]⟩ .f32) (dv : FVec Ideal ⟨1, ![N]⟩ .f32) (Wl Wr : FVec Ideal ⟨2, ![C, C']⟩ .f32)
    (b : FVec Ideal ⟨1, ![C']⟩ .f32)
    (h0 : (⟨0, ![]⟩ : Shape).BroadcastsInDim ⟨1, ![N]⟩ ![])
    (h1 : (⟨1, ![N]⟩ : Shape).BroadcastsInDim ⟨2, ![N, 1]⟩ ![0])
    (h2 : (⟨2, ![N, 1]⟩ : Shape).BroadcastsInDim ⟨2, ![N, C]⟩ ![0, 1])
    (h3 : (⟨1, ![C']⟩ : Shape).BroadcastsInDim ⟨2, ![1, C']⟩ ![1])
    (h4 : (⟨2, ![1, C']⟩ : Shape).BroadcastsInDim ⟨2, ![N, C']⟩ ![0, 1]) :
    addf (addf (Host.dotGeneral D none
          (Host.divf S (broadcastInDim ⟨2, ![N, C]⟩ ![0, 1] h2 (broadcastInDim ⟨2, ![N, 1]⟩ ![0] h1
            (maximumf dv (broadcastInDim ⟨1, ![N]⟩ ![] h0 (constant (F := Ideal) ⟨0, ![]⟩ .f32 0x3F800000#32)))))) Wl)
        (broadcastInDim ⟨2, ![N, C']⟩ ![0, 1] h4 (broadcastInDim ⟨2, ![1, C']⟩ ![1] h3 b)))
      (Host.dotGeneral D none x Wr)
      = sage S (col dv) x Wl (row b) Wr := by
  rw [hostDivf_column S dv h0 h1 h2, host_dense D hlb hln hlc hrb hrn hrc, host_dot_eq_mm D hlb hln hlc hrb hrn hrc]
  rfl

/-- The rectifier over an array, the zero a broadcast scalar constant. -/
theorem relu_host {s : Shape} (z : FVec Ideal s .f32) (h : (⟨0, ![]⟩ : Shape).BroadcastsInDim s ![]) :
    maximumf z (broadcastInDim s ![] h (constant (F := Ideal) ⟨0, ![]⟩ .f32 0x00000000#32)) = fun i => relu (z i) := by
  funext i
  rw [maximumf_apply, broadcastInDim_scalar_apply]
  rfl

/-- A vector reshaped to one column is that column. -/
theorem shapeCast_col {N : Nat} (v : (⟨1, ![N]⟩ : Shape).Idx → EReal) (h : (⟨1, ![N]⟩ : Shape).ShapeCasts ⟨2, ![N, 1]⟩) :
    shapeCast ⟨2, ![N, 1]⟩ v h = col v := by
  funext j
  obtain ⟨p, u, rfl⟩ : ∃ (p : Fin N) (u : Fin 1), j = ix2 p u := ⟨j 0, j 1, eq_ix2 j⟩
  rw [shapeCast_a_a1_apply]
  rfl

end Cert.Spec

end
-- ==== Proof.Region0.lean ====
/-
  What kernel launch 0 leaves in its output array, as ONE function of the arrays it finds at entry.

  The launch runs twenty grid points; point `t` reads rows `5000·t … 5000·t + 4999` of the neighbour sums, of the degree
  column and of the node features, and the whole weight matrices and bias row, and writes the same rows of the output:
  the layer `(S / max(d, 1)) · Wl + b + x · Wr` under the rectifier on that tile. A row of the layer depends on the same row of its operands
  only, so the tile written is the tile of the layer of the WHOLE arrays; the twenty tiles cover the array.
-/
import proofs.«159179_j79963701117112_2_alg».proof.Proof.Gen.KernelIdeal.Frame
import proofs.«159179_j79963701117112_2_alg».proof.Proof.LibSageLayer
import Idealize.ShloMosaic.Lib.Pipeline.Value

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on a tile is the layer on that tile. -/
theorem tile_eq (v0 : FVec Ideal S5000x1 .f32) (v4 v9 : FVec Ideal S5000x128 .f32) (vl vr : FVec Ideal S128x128 .bf16)
    (vb : FVec Ideal S1x128 .f32) :
    k0_pay1 (F := Ideal) v0 v4 v9 vl vb vr = fun j => relu (sage (N := 5000) (C := 128) (C' := 128) v4 v0 v9 vl vb vr j) := by
  unfold k0_pay1
  simp only [shapeCast_self]
  rw [relu_tile]
  rw [sage_tile dot_S5000x128_S128x128_S5000x128_1_0_0_1_n_n rfl rfl rfl rfl rfl rfl]

/-- The printed index maps over the grid: the row-tiled windows move with the output's row block, on column block 0; the
    weights and the bias stay at block (0, 0). -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 19 :=
  (by decide +kernel : ∀ t : Fin grid0.N, _)

/-- Every row block is some point's. -/
theorem index_onto : ∀ q : Fin 20, ∃ t : Fin cfg0.N, win0_6.index t = ![q.val, 0] :=
  (by decide +kernel : ∀ q : Fin 20, ∃ t : Fin grid0.N, win0_6.index t = ![q.val, 0])

/-- What point `t` writes back is block `t` of the layer of the whole arrays. -/
theorem flushed_eq (c : Dev nD) (t : Fin cfg0.N) :
    (dat0 V c).flushed 6 t = ((cfg0.win 6).blk t).view.read (Elt Ideal)
      (fun i => relu (sage (N := 100000) (C := 128) (C' := 128) (V c main_v18) (V c main_v8) (V c main_arg0) (V c main_v20) (V c main_v23) (V c main_v22) i)) := by
  show (cfg0.win 6).cut (grid0.coords t) ((dat0 V c).after 6 t) = _
  rw [after0_6]
  unfold out0_6
  rw [View.canon_unit_zero origin]
  simp only [View.ld_unit_zero (S := S5000x128) origin, View.ld_unit_zero (S := S5000x1) origin,
    View.ld_unit_zero (S := S128x128) origin, View.ld_unit_zero (S := S1x128) origin]
  rw [tile_eq]
  obtain ⟨e00, e01, e10, e11, e20, e21, e30, e31, e40, e41, e50, e51, e61, -⟩ := index_facts t
  have hWl : iblk0 V c 3 t = V c main_v20 := by
    funext y
    show V c main_v20 (((cfg0.win 3).blk t).view.emb y) = V c main_v20 y
    refine congrArg (V c main_v20) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have hb : iblk0 V c 4 t = V c main_v23 := by
    funext y
    show V c main_v23 (((cfg0.win 4).blk t).view.emb y) = V c main_v23 y
    refine congrArg (V c main_v23) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  have hWr : iblk0 V c 5 t = V c main_v22 := by
    funext y
    show V c main_v22 (((cfg0.win 5).blk t).view.emb y) = V c main_v22 y
    refine congrArg (V c main_v22) (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  rw [hWl, hb, hWr]
  funext j
  show relu (sage (N := 5000) (C := 128) (C' := 128) (iblk0 V c 0 t) (iblk0 V c 1 t) (iblk0 V c 2 t) (V c main_v20) (V c main_v23) (V c main_v22) j)
    = relu (sage (N := 100000) (C := 128) (C' := 128) (V c main_v18) (V c main_v8) (V c main_arg0) (V c main_v20) (V c main_v23) (V c main_v22) (((cfg0.win 6).blk t).view.emb j))
  refine congrArg relu (sage_at (B := 5000) (N := 100000) (C := 128) (C' := 128) _ _ _ _ _ _ _ _ _ j _ ?_ ?_ ?_ ?_)
  · refine Fin.ext ?_
    show win0_6.index t (1 : Fin 2) * 128 + 1 * (j 1).val = (j 1).val
    omega
  · intro k
    show V c main_v18 (((cfg0.win 0).blk t).view.emb (ix2 (j 0) k)) = V c main_v18 (ix2 ((((cfg0.win 6).blk t).view.emb j) 0) k)
    refine congrArg (V c main_v18) (funext fun a => Fin.ext ?_)
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 128 + 1 * k.val = k.val; omega
  · show V c main_v8 (((cfg0.win 1).blk t).view.emb (ix2 (j 0) (0 : Fin 1))) = V c main_v8 (ix2 ((((cfg0.win 6).blk t).view.emb j) 0) (0 : Fin 1))
    refine congrArg (V c main_v8) (funext fun a => Fin.ext ?_)
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 1 + 1 * 0 = 0; omega
  · intro k
    show V c main_arg0 (((cfg0.win 2).blk t).view.emb (ix2 (j 0) k)) = V c main_arg0 (ix2 ((((cfg0.win 6).blk t).view.emb j) 0) k)
    refine congrArg (V c main_arg0) (funext fun a => Fin.ext ?_)
    match a with
    | ⟨0, _⟩ => show win0_2.index t (0 : Fin 2) * 5000 + 1 * (j 0).val = win0_6.index t (0 : Fin 2) * 5000 + 1 * (j 0).val; omega
    | ⟨1, _⟩ => show win0_2.index t (1 : Fin 2) * 128 + 1 * k.val = k.val; omega

/-- An index of the array is in point `t`'s block iff each coordinate is in the block's range on its axis. -/
theorem mem_block (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24).slice (win0_6.rect t)).set ↔ _
  rw [View.set_slice_whole, Rect.mem_set_unit]
  exact Iff.rfl

/-- The twenty row blocks cover the array: row `r` is in block `r / 5000`. -/
theorem covered (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := index_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the launch is the layer of the arrays found at entry. -/
theorem output (c : Dev nD) :
    (dat0 V c).arrAt 6 cfg0.N
      = fun i => relu (sage (N := 100000) (C := 128) (C' := 128) (V c main_v18) (V c main_v8) (V c main_arg0) (V c main_v20) (V c main_v23) (V c main_v22) i) :=
  (dat0 V c).arrAt_eq_of_cover 6 _ (fun t _ => flushed_eq V c t) (covered)

end Cert.KernelIdeal.Region0

end
-- ==== Proof.RefLayers.lean ====
/-
  The reference program's three dense stages, each as the layer it computes.

  The reference's first layer (its stage `val_main_v31`) is `relu (sage S₁ deg x Wl₁ᵀ bl₁ Wr₁ᵀ)`: `S₁` the neighbour sums of
  `x` (stage `val_main_v13`), `deg` the in-degree vector (stage `val_main_v17`) as a column, the weights transposed
  (stages `val_main_v23`, `val_main_v28`), the bias as a row. Its second layer (`val_main_v62`) is `sage S₂ deg h Wl₂ᵀ bl₂
  Wr₂ᵀ` with `h` the first layer and `S₂` its neighbour sums (`val_main_v45`; the degree vector is computed again, stage
  `val_main_v49`). Its scores before the final reshape (`val_main_v86`) are the dense layer `feats · Wdecᵀ + bdec` of the
  joined endpoint features (`val_main_v81`).
-/
import proofs.«159179_j79963701117112_2_alg».proof.Proof.Gen.ReferenceIdeal.Read
import proofs.«159179_j79963701117112_2_alg».proof.Proof.LibSageLayer

set_option maxRecDepth 16384

noncomputable section

namespace Cert.ReferenceIdeal.Layers

open Cert.ReferenceIdeal Cert.ReferenceIdeal.Read Cert.Spec
open Idealize.ShloMosaic Idealize.ShloMosaic.ValueIdx

/-- The first layer. -/
theorem layer1 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v31 (F := Ideal) x0 x1 x3 x4 x5
      = fun i => relu (sage (N := 100000) (C := 128) (C' := 128) (val_main_v13 (F := Ideal) x0 x1) (col (val_main_v17 (F := Ideal) x1)) x0
          (val_main_v23 (F := Ideal) x3) (row x4) (val_main_v28 (F := Ideal) x5) i) := by
  unfold val_main_v31 val_main_call0_v0 val_main_call0_cst val_main_v30 val_main_v29 val_main_v27 val_main_v26 val_main_v25
    val_main_v24 val_main_v22 val_main_v21 val_main_v20 val_main_v19 val_main_v18 val_main_cst_3
  rw [relu_host, sage_host dot_S100000x128_S128x128_S100000x128_1_0_0_1_n_n rfl rfl rfl rfl rfl rfl]

/-- The second layer. -/
theorem layer2 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S64x128, .f32⟩ : BufTy).Contents (Elt Ideal))
    (x7 : (⟨S64, .f32⟩ : BufTy).Contents (Elt Ideal)) (x8 : (⟨S64x128, .f32⟩ : BufTy).Contents (Elt Ideal)) :
    val_main_v62 (F := Ideal) x0 x1 x3 x4 x5 x6 x7 x8
      = sage (N := 100000) (C := 128) (C' := 64) (val_main_v45 (F := Ideal) x0 x1 x3 x4 x5) (col (val_main_v49 (F := Ideal) x1))
          (val_main_v31 (F := Ideal) x0 x1 x3 x4 x5) (val_main_v55 (F := Ideal) x6) (row x7) (val_main_v60 (F := Ideal) x8) := by
  unfold val_main_v62 val_main_v61 val_main_v59 val_main_v58 val_main_v57 val_main_v56 val_main_v54 val_main_v53 val_main_v52
    val_main_v51 val_main_v50 val_main_cst_9
  rw [sage_host dot_S100000x128_S128x64_S100000x64_1_0_0_1_n_n rfl rfl rfl rfl rfl rfl]

/-- The scores before the final reshape. -/
theorem scores (x0 : (⟨S100000x128, .f32⟩ : BufTy).Contents (Elt Ideal)) (x1 : (⟨S2x1600000, .i32⟩ : BufTy).Contents (Elt Ideal))
    (x2 : (⟨S2x200000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S64x128, .f32⟩ : BufTy).Contents (Elt Ideal))
    (x7 : (⟨S64, .f32⟩ : BufTy).Contents (Elt Ideal)) (x8 : (⟨S64x128, .f32⟩ : BufTy).Contents (Elt Ideal))
    (x9 : (⟨S1x128, .f32⟩ : BufTy).Contents (Elt Ideal)) (x10 : (⟨S1, .f32⟩ : BufTy).Contents (Elt Ideal)) :
    val_main_v86 (F := Ideal) x0 x1 x2 x3 x4 x5 x6 x7 x8 x9 x10
      = dense (M := 200000) (K := 128) (N := 1) (val_main_v81 (F := Ideal) x0 x1 x2 x3 x4 x5 x6 x7 x8) (val_main_v82 (F := Ideal) x9) (row x10) := by
  unfold val_main_v86 val_main_v85 val_main_v84 val_main_v83
  exact host_dense dot_S200000x128_S128x1_S200000x1_1_0_0_1_n_n rfl rfl rfl rfl rfl rfl _ _ _ _ _

end Cert.ReferenceIdeal.Layers

end
-- ==== Proof.Stretch1.lean ====
/-
  The buffers the first launch leaves and the second launch finds, as functions of the program's arguments.

  The first launch leaves in its output the first layer of the reference (`val_main_v31`): its tile-by-tile result is
  the layer of the whole arrays it found, and those are the reference's stages. It leaves its input arrays, and every
  buffer that is not one of its arrays, as it found them. The host operations between the first and second launch gather
  the first layer's rows along the edges and sum them per destination (the reference's `val_main_v45`), and transpose the
  second layer's weights.
-/
import proofs.«159179_j79963701117112_2_alg».proof.Proof.Stretch0
import proofs.«159179_j79963701117112_2_alg».proof.Proof.Region0
import proofs.«159179_j79963701117112_2_alg».proof.Proof.RefLayers

set_option maxRecDepth 16384
set_option quotPrecheck false

noncomputable section

namespace Cert.KernelIdeal.HostValue

open Cert.KernelIdeal Cert.KernelIdeal.Gen
open Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)

/-! ## After the first launch -/

/-- The first launch's output is the reference's first layer. -/
theorem exit0_h : W2 m ρ c (Proc.devRef .tc main_v24) = val_main_v31 (F := Ideal) a0 a1 a3 a4 a5 := by
  refine (W2_arr m ρ c 6).trans ?_
  rw [Cert.KernelIdeal.Region0.output (V1 m ρ) c, Cert.ReferenceIdeal.Layers.layer1,
    entry0_sums, entry0_deg, entry0_x, entry0_wl, entry0_b, entry0_wr, Cert.Spec.shapeCast_col, Cert.Spec.shapeCast_row]

/-- The degree column is an input array of the launch: unchanged. -/
theorem exit0_deg : W2 m ρ c (Proc.devRef .tc main_v8)
    = shapeCast S100000x1 (val_main_v17 (F := Ideal) a1) shapeCasts_S100000_S100000x1 :=
  ((W2_arr m ρ c 1).trans (((dat0 (V1 m ρ) c).arrAt_in 1 rfl _).trans (A_eq0 (V1 m ρ) c 1))).trans (entry0_deg m ρ c)

theorem exit0_src : W2 m ρ c (Proc.devRef .tc main_v1) = val_main_v1 (F := Ideal) a1 :=
  (W2_of_ne m ρ c main_v1 (by decide)).trans (entry0_src m ρ c)
theorem exit0_dst : W2 m ρ c (Proc.devRef .tc main_v3) = val_main_v3 (F := Ideal) a1 :=
  (W2_of_ne m ρ c main_v3 (by decide)).trans (entry0_dst m ρ c)
theorem exit0_arg2 : W2 m ρ c (Proc.devRef .tc main_arg2) = a2 :=
  (W2_of_ne m ρ c main_arg2 (by decide)).trans (entry0_arg2 m ρ c)
theorem exit0_arg6 : W2 m ρ c (Proc.devRef .tc main_arg6) = a6 :=
  (W2_of_ne m ρ c main_arg6 (by decide)).trans (entry0_arg6 m ρ c)
theorem exit0_arg7 : W2 m ρ c (Proc.devRef .tc main_arg7) = a7 :=
  (W2_of_ne m ρ c main_arg7 (by decide)).trans (entry0_arg7 m ρ c)
theorem exit0_arg8 : W2 m ρ c (Proc.devRef .tc main_arg8) = a8 :=
  (W2_of_ne m ρ c main_arg8 (by decide)).trans (entry0_arg8 m ρ c)
theorem exit0_arg9 : W2 m ρ c (Proc.devRef .tc main_arg9) = a9 :=
  (W2_of_ne m ρ c main_arg9 (by decide)).trans (entry0_arg9 m ρ c)
theorem exit0_arg10 : W2 m ρ c (Proc.devRef .tc main_arg10) = a10 :=
  (W2_of_ne m ρ c main_arg10 (by decide)).trans (entry0_arg10 m ρ c)

/-! ## Before the second launch -/

/-- The neighbour sums of the first layer. -/
theorem entry1_sums : V3 m ρ c main_v34 = val_main_v45 (F := Ideal) a0 a1 a3 a4 a5 := by
  show StableHlo.after hostOps1 (W2 m ρ c) (Proc.devRef .tc main_v34) = _
  after_results_simp
  rw [exit0_h, exit0_src, exit0_dst]
  rfl

/-- The degree column, untouched by the stretch. -/
theorem entry1_deg : V3 m ρ c main_v8 = shapeCast S100000x1 (val_main_v17 (F := Ideal) a1) shapeCasts_S100000_S100000x1 := by
  show StableHlo.after hostOps1 (W2 m ρ c) (Proc.devRef .tc main_v8) = _
  after_results_simp
  exact exit0_deg m ρ c

/-- The first layer, untouched by the stretch. -/
theorem entry1_h : V3 m ρ c main_v24 = val_main_v31 (F := Ideal) a0 a1 a3 a4 a5 := by
  show StableHlo.after hostOps1 (W2 m ρ c) (Proc.devRef .tc main_v24) = _
  after_results_simp
  exact exit0_h m ρ c

/-- The second layer's neighbour weights, transposed. -/
theorem entry1_wl : V3 m ρ c main_v36 = val_main_v55 (F := Ideal) a6 := by
  show StableHlo.after hostOps1 (W2 m ρ c) (Proc.devRef .tc main_v36) = _
  after_results_simp
  rw [exit0_arg6]
  rfl

/-- The second layer's bias, as a row. -/
theorem entry1_b : V3 m ρ c main_v39 = shapeCast S1x64 a7 shapeCasts_S64_S1x64 := by
  show StableHlo.after hostOps1 (W2 m ρ c) (Proc.devRef .tc main_v39) = _
  after_results_simp
  rw [exit0_arg7]
  rfl

/-- The second layer's self weights, transposed. -/
theorem entry1_wr : V3 m ρ c main_v38 = val_main_v60 (F := Ideal) a8 := by
  show StableHlo.after hostOps1 (W2 m ρ c) (Proc.devRef .tc main_v38) = _
  after_results_simp
  rw [exit0_arg8]
  rfl

theorem entry1_arg2 : V3 m ρ c main_arg2 = a2 := by
  show StableHlo.after hostOps1 (W2 m ρ c) (Proc.devRef .tc main_arg2) = _
  after_results_simp
  exact exit0_arg2 m ρ c
theorem entry1_arg9 : V3 m ρ c main_arg9 = a9 := by
  show StableHlo.after hostOps1 (W2 m ρ c) (Proc.devRef .tc main_arg9) = _
  after_results_simp
  exact exit0_arg9 m ρ c
theorem entry1_arg10 : V3 m ρ c main_arg10 = a10 := by
  show StableHlo.after hostOps1 (W2 m ρ c) (Proc.devRef .tc main_arg10) = _
  after_results_simp
  exact exit0_arg10 m ρ c

end Cert.KernelIdeal.HostValue

end
-- ==== Proof.Region1.lean ====
/-
  What kernel launch 1 leaves in its output array, as ONE function of the arrays it finds at entry.

  The launch runs twenty grid points; point `t` reads rows `5000·t … 5000·t + 4999` of the neighbour sums, of the degree
  column and of the node features, and the whole weight matrices and bias row, and writes the same rows of the output:
  the layer `(S / max(d, 1)) · Wl + b + x · Wr` on that tile. A row of the layer depends on the same row of its operands
  only, so the tile written is the tile of the layer of the WHOLE arrays; the twenty tiles cover the array.
-/
import proofs.«159179_j79963701117112_2_alg».proof.Proof.Gen.KernelIdeal.Frame
import proofs.«159179_j79963701117112_2_alg».proof.Proof.LibSageLayer
import Idealize.ShloMosaic.Lib.Pipeline.Value

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on a tile is the layer on that tile. -/
theorem tile_eq (v0 : FVec Ideal S5000x1 .f32) (v4 v9 : FVec Ideal S5000x128 .f32) (vl vr : FVec Ideal S128x64 .bf16)
    (vb : FVec Ideal S1x64 .f32) :
    k1_pay1 (F := Ideal) v0 v4 v9 vl vb vr = fun j => sage (N := 5000) (C := 128) (C' := 64) v4 v0 v9 vl vb vr j := by
  unfold k1_pay1
  simp only [shapeCast_self]
  rw [sage_tile dot_S5000x128_S128x64_S5000x64_1_0_0_1_n_n rfl rfl rfl rfl rfl rfl]

/-- The printed index maps over the grid: the row-tiled windows move with the output's row block, on column block 0; the
    weights and the bias stay at block (0, 0). -/
theorem index_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 19 :=
  (by decide +kernel : ∀ t : Fin grid1.N, _)

/-- Every row block is some point's. -/
theorem index_onto : ∀ q : Fin 20, ∃ t : Fin cfg1.N, win1_6.index t = ![q.val, 0] :=
  (by decide +kernel : ∀ q : Fin 20, ∃ t : Fin grid1.N, win1_6.index t = ![q.val, 0])

set_option maxHeartbeats 2000000 in
/-- What point `t` writes back is block `t` of the layer of the whole arrays. -/
theorem flushed_eq (c : Dev nD) (t : Fin cfg1.N) :
    (dat1 V c).flushed 6 t = ((cfg1.win 6).blk t).view.read (Elt Ideal)
      (fun i => sage (N := 100000) (C := 128) (C' := 64) (V c main_v34) (V c main_v8) (V c main_v24) (V c main_v36) (V c main_v39) (V c main_v38) i) := by
  show (cfg1.win 6).cut (grid1.coords t) ((dat1 V c).after 6 t) = _
  rw [after1_6]
  unfold out1_6
  rw [View.canon_unit_zero origin]
  simp only [View.ld_unit_zero (S := S5000x128) origin, View.ld_unit_zero (S := S5000x1) origin,
    View.ld_unit_zero (S := S128x64) origin, View.ld_unit_zero (S := S1x64) origin]
  rw [tile_eq]
  obtain ⟨e00, e01, e10, e11, e20, e21, e30, e31, e40, e41, e50, e51, e61, -⟩ := index_facts t
  have hWl : iblk1 V c 3 t = V c main_v36 := by
    funext y
    show V c main_v36 (((cfg1.win 3).blk t).view.emb y) = V c main_v36 y
    refine congrArg (V c main_v36) (funext fun a => Fin.ext ?_)
    match a with
    | ⟨0, _⟩ => show win1_3.index t (0 : Fin 2) * 128 + 1 * (y 0).val = (y 0).val; omega
    | ⟨1, _⟩ => show win1_3.index t (1 : Fin 2) * 64 + 1 * (y 1).val = (y 1).val; omega
  have hb : iblk1 V c 4 t = V c main_v39 := by
    funext y
    show V c main_v39 (((cfg1.win 4).blk t).view.emb y) = V c main_v39 y
    refine congrArg (V c main_v39) (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega
  have hWr : iblk1 V c 5 t = V c main_v38 := by
    funext y
    show V c main_v38 (((cfg1.win 5).blk t).view.emb y) = V c main_v38 y
    refine congrArg (V c main_v38) (funext fun a => Fin.ext ?_)
    match a with
    | ⟨0, _⟩ => show win1_5.index t (0 : Fin 2) * 128 + 1 * (y 0).val = (y 0).val; omega
    | ⟨1, _⟩ => show win1_5.index t (1 : Fin 2) * 64 + 1 * (y 1).val = (y 1).val; omega
  rw [hWl, hb, hWr]
  funext j
  show sage (N := 5000) (C := 128) (C' := 64) (iblk1 V c 0 t) (iblk1 V c 1 t) (iblk1 V c 2 t) (V c main_v36) (V c main_v39) (V c main_v38) j
    = sage (N := 100000) (C := 128) (C' := 64) (V c main_v34) (V c main_v8) (V c main_v24) (V c main_v36) (V c main_v39) (V c main_v38) (((cfg1.win 6).blk t).view.emb j)
  refine (sage_at (B := 5000) (N := 100000) (C := 128) (C' := 64) _ _ _ _ _ _ _ _ _ j _ ?_ ?_ ?_ ?_)
  · refine Fin.ext ?_
    show win1_6.index t (1 : Fin 2) * 64 + 1 * (j 1).val = (j 1).val
    omega
  · intro k
    show V c main_v34 (((cfg1.win 0).blk t).view.emb (ix2 (j 0) k)) = V c main_v34 (ix2 ((((cfg1.win 6).blk t).view.emb j) 0) k)
    refine congrArg (V c main_v34) (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * k.val = k.val; omega
  · show V c main_v8 (((cfg1.win 1).blk t).view.emb (ix2 (j 0) (0 : Fin 1))) = V c main_v8 (ix2 ((((cfg1.win 6).blk t).view.emb j) 0) (0 : Fin 1))
    refine congrArg (V c main_v8) (funext fun a => Fin.ext ?_)
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 1 + 1 * 0 = 0; omega
  · intro k
    show V c main_v24 (((cfg1.win 2).blk t).view.emb (ix2 (j 0) k)) = V c main_v24 (ix2 ((((cfg1.win 6).blk t).view.emb j) 0) k)
    refine congrArg (V c main_v24) (funext fun a => Fin.ext ?_)
    match a with
    | ⟨0, _⟩ => show win1_2.index t (0 : Fin 2) * 5000 + 1 * (j 0).val = win1_6.index t (0 : Fin 2) * 5000 + 1 * (j 0).val; omega
    | ⟨1, _⟩ => show win1_2.index t (1 : Fin 2) * 128 + 1 * k.val = k.val; omega

/-- An index of the array is in point `t`'s block iff each coordinate is in the block's range on its axis. -/
theorem mem_block (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v40).slice (win1_6.rect t)).set ↔ _
  rw [View.set_slice_whole, Rect.mem_set_unit]
  exact Iff.rfl

/-- The twenty row blocks cover the array: row `r` is in block `r / 5000`. -/
theorem covered (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := index_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The output array after the launch is the layer of the arrays found at entry. -/
theorem output (c : Dev nD) :
    (dat1 V c).arrAt 6 cfg1.N
      = fun i => sage (N := 100000) (C := 128) (C' := 64) (V c main_v34) (V c main_v8) (V c main_v24) (V c main_v36) (V c main_v39) (V c main_v38) i :=
  (dat1 V c).arrAt_eq_of_cover 6 _ (fun t _ => flushed_eq V c t) (covered)

end Cert.KernelIdeal.Region1

end
-- ==== Proof.Region2.lean ====
/-
  What the decoding launch leaves in its output array, as ONE function of the arrays it finds at entry.

  The launch runs twenty grid points; point `t` reads rows `10000·t … 10000·t + 9999` of the joined endpoint features and
  the whole weight column and bias, and writes the same rows of the scores: the dense layer `feats · W + b` on that tile.
  A row of a dense layer depends on the same row of its operand only, so the tile written is the tile of the dense layer
  of the WHOLE array; the twenty tiles cover the array.
-/
import proofs.«159179_j79963701117112_2_alg».proof.Proof.Gen.KernelIdeal.Frame
import proofs.«159179_j79963701117112_2_alg».proof.Proof.LibSageLayer
import Idealize.ShloMosaic.Lib.Pipeline.Value

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on a tile is the dense layer on that tile. -/
theorem tile_eq (v0 : FVec Ideal S10000x128 .f32) (v3 : FVec Ideal S128x1 .bf16) (v6 : FVec Ideal S1x1 .f32) :
    k2_pay1 (F := Ideal) v0 v3 v6 = dense (M := 10000) (K := 128) (N := 1) v0 v3 v6 := by
  unfold k2_pay1
  simp only [shapeCast_self]
  exact dense_vec dot_S10000x128_S128x1_S10000x1_1_0_0_1_n_n rfl rfl rfl rfl rfl rfl v0 v3 v6 _

/-- The printed index maps over the grid: the features move with the output's row block, on column block 0; the weight
    column and the bias stay at block (0, 0). -/
theorem index_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 19 :=
  (by decide +kernel : ∀ t : Fin grid2.N, _)

/-- Every row block is some point's. -/
theorem index_onto : ∀ q : Fin 20, ∃ t : Fin cfg2.N, win2_3.index t = ![q.val, 0] :=
  (by decide +kernel : ∀ q : Fin 20, ∃ t : Fin grid2.N, win2_3.index t = ![q.val, 0])

/-- What point `t` writes back is block `t` of the dense layer of the whole arrays. -/
theorem flushed_eq (c : Dev nD) (t : Fin cfg2.N) :
    (dat2 V c).flushed 3 t = ((cfg2.win 3).blk t).view.read (Elt Ideal)
      (dense (M := 200000) (K := 128) (N := 1) (V c main_v59) (V c main_v61) (V c main_v62)) := by
  show (cfg2.win 3).cut (grid2.coords t) ((dat2 V c).after 3 t) = _
  rw [after2_3]
  unfold out2_3
  rw [View.canon_unit_zero origin]
  simp only [View.ld_unit_zero (S := S10000x128) origin, View.ld_unit_zero (S := S128x1) origin,
    View.ld_unit_zero (S := S1x1) origin]
  rw [tile_eq]
  obtain ⟨e00, e01, e10, e11, e20, e21, e31, -⟩ := index_facts t
  have hW : iblk2 V c 1 t = V c main_v61 := by
    funext y
    show V c main_v61 (((cfg2.win 1).blk t).view.emb y) = V c main_v61 y
    refine congrArg (V c main_v61) (funext fun a => Fin.ext ?_)
    match a with
    | ⟨0, _⟩ => show win2_1.index t (0 : Fin 2) * 128 + 1 * (y 0).val = (y 0).val; omega
    | ⟨1, _⟩ => show win2_1.index t (1 : Fin 2) * 1 + 1 * (y 1).val = (y 1).val; omega
  have hb : iblk2 V c 2 t = V c main_v62 := by
    funext y
    show V c main_v62 (((cfg2.win 2).blk t).view.emb y) = V c main_v62 y
    refine congrArg (V c main_v62) (funext fun a => Fin.ext ?_)
    match a with
    | ⟨0, _⟩ => show win2_2.index t (0 : Fin 2) * 1 + 1 * (y 0).val = (y 0).val; omega
    | ⟨1, _⟩ => show win2_2.index t (1 : Fin 2) * 1 + 1 * (y 1).val = (y 1).val; omega
  rw [hW, hb]
  funext j
  show dense (M := 10000) (K := 128) (N := 1) (iblk2 V c 0 t) (V c main_v61) (V c main_v62) j
    = dense (M := 200000) (K := 128) (N := 1) (V c main_v59) (V c main_v61) (V c main_v62) (((cfg2.win 3).blk t).view.emb j)
  refine dense_at (B := 10000) (N := 200000) (K := 128) (C' := 1) _ _ _ _ j _ ?_ ?_
  · refine Fin.ext ?_
    show win2_3.index t (1 : Fin 2) * 1 + 1 * (j 1).val = (j 1).val
    omega
  · intro k
    show V c main_v59 (((cfg2.win 0).blk t).view.emb (ix2 (j 0) k)) = V c main_v59 (ix2 ((((cfg2.win 3).blk t).view.emb j) 0) k)
    refine congrArg (V c main_v59) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 128 + 1 * k.val = k.val; omega

/-- An index of the array is in point `t`'s block iff each coordinate is in the block's range on its axis. -/
theorem mem_block (t : Fin cfg2.N) (i : S200000x1.Idx) :
    i ∈ ((cfg2.win 3).blk t).view.set ↔ ∀ a : Fin 2, win2_3.index t a * S10000x1.size a ≤ (i a).val ∧ (i a).val < win2_3.index t a * S10000x1.size a + S10000x1.size a := by
  show i ∈ ((View.whole main_v63).slice (win2_3.rect t)).set ↔ _
  rw [View.set_slice_whole, Rect.mem_set_unit]
  exact Iff.rfl

/-- The twenty row blocks cover the array: row `r` is in block `r / 10000`. -/
theorem covered (i : S200000x1.Idx) : ∃ t : Fin cfg2.N, (cfg2.win 3).flush t = true ∧ i ∈ ((cfg2.win 3).blk t).view.set := by
  have hi0 : (i 0).val < 200000 := (i 0).isLt
  have hi1 : (i 1).val < 1 := (i 1).isLt
  obtain ⟨t, ht⟩ := index_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 1 ≤ (i 1).val ∧ (i 1).val < win2_3.index t (1 : Fin 2) * 1 + 1; omega

/-- The output array after the launch is the dense layer of the arrays found at entry. -/
theorem output (c : Dev nD) :
    (dat2 V c).arrAt 3 cfg2.N = dense (M := 200000) (K := 128) (N := 1) (V c main_v59) (V c main_v61) (V c main_v62) :=
  (dat2 V c).arrAt_eq_of_cover 3 _ (fun t _ => flushed_eq V c t) (covered)

end Cert.KernelIdeal.Region2

end
-- ==== Proof.Stretch2.lean ====
/-
  From the second launch to the result, as functions of the program's arguments.

  The second launch leaves in its output the reference's second layer (`val_main_v62`); the in-degrees the reference
  computes a second time are the ones computed once here. The host operations before the third launch gather that
  layer's rows at the two endpoints of every candidate edge and join them (the reference's `val_main_v81`), transpose the
  decoder's weights and lay its bias out as a 1 × 1 matrix. The third launch leaves the reference's scores
  (`val_main_v86`), and the last host operation flattens them: the reference's result `val_main_v87`.
-/
import proofs.«159179_j79963701117112_2_alg».proof.Proof.Stretch1
import proofs.«159179_j79963701117112_2_alg».proof.Proof.Region1
import proofs.«159179_j79963701117112_2_alg».proof.Proof.Region2
import proofs.«159179_j79963701117112_2_alg».proof.Proof.RefLayers

set_option maxRecDepth 16384
set_option quotPrecheck false

noncomputable section

namespace Cert.KernelIdeal.HostValue

open Cert.KernelIdeal Cert.KernelIdeal.Gen
open Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)

/-- The reference's second computation of the in-degrees is its first. -/
theorem degrees_again (x1 : (⟨Cert.ReferenceIdeal.S2x1600000, .i32⟩ : BufTy).Contents (Elt Ideal)) :
    val_main_v49 (F := Ideal) x1 = val_main_v17 (F := Ideal) x1 := rfl

/-! ## After the second launch -/

/-- The second launch's output is the reference's second layer. -/
theorem exit1_z : W4 m ρ c (Proc.devRef .tc main_v40) = val_main_v62 (F := Ideal) a0 a1 a3 a4 a5 a6 a7 a8 := by
  refine (W4_arr m ρ c 6).trans ?_
  rw [Cert.KernelIdeal.Region1.output (V3 m ρ) c, Cert.ReferenceIdeal.Layers.layer2, degrees_again,
    entry1_sums, entry1_deg, entry1_h, entry1_wl, entry1_b, entry1_wr, Cert.Spec.shapeCast_col, Cert.Spec.shapeCast_row]

theorem exit1_arg2 : W4 m ρ c (Proc.devRef .tc main_arg2) = a2 :=
  (W4_of_ne m ρ c main_arg2 (by decide)).trans (entry1_arg2 m ρ c)
theorem exit1_arg9 : W4 m ρ c (Proc.devRef .tc main_arg9) = a9 :=
  (W4_of_ne m ρ c main_arg9 (by decide)).trans (entry1_arg9 m ρ c)
theorem exit1_arg10 : W4 m ρ c (Proc.devRef .tc main_arg10) = a10 :=
  (W4_of_ne m ρ c main_arg10 (by decide)).trans (entry1_arg10 m ρ c)

/-! ## Before the third launch -/

/-- Joining two arrays along their columns respects equality of each. -/
theorem joined_congr {x x' y y' : FVec Ideal S200000x64 .f32} (hx : x = x') (hy : y = y')
    (h h' : Shape.Concatenates [S200000x64, S200000x64] S200000x128 1) :
    concatenate S200000x128 1 [⟨S200000x64, x⟩, ⟨S200000x64, y⟩] h
      = concatenate S200000x128 1 [⟨S200000x64, x'⟩, ⟨S200000x64, y'⟩] h' := by
  subst hx hy
  rfl

/-- The joined endpoint features. -/
theorem entry2_feats : V5 m ρ c main_v59 = val_main_v81 (F := Ideal) a0 a1 a2 a3 a4 a5 a6 a7 a8 := by
  show StableHlo.after hostOps2 (W4 m ρ c) (Proc.devRef .tc main_v59) = _
  after_results_simp
  unfold val_main_v81
  refine joined_congr ?_ ?_ _ _
  · after_results_simp
    rw [exit1_z, exit1_arg2]
    rfl
  · after_results_simp
    rw [exit1_z, exit1_arg2]
    rfl

/-- The decoder's weights, transposed to a column. -/
theorem entry2_w : V5 m ρ c main_v61 = val_main_v82 (F := Ideal) a9 := by
  show StableHlo.after hostOps2 (W4 m ρ c) (Proc.devRef .tc main_v61) = _
  after_results_simp
  rw [exit1_arg9]
  rfl

/-- The decoder's bias, as a 1 × 1 matrix. -/
theorem entry2_b : V5 m ρ c main_v62 = shapeCast S1x1 a10 shapeCasts_S1_S1x1 := by
  show StableHlo.after hostOps2 (W4 m ρ c) (Proc.devRef .tc main_v62) = _
  after_results_simp
  rw [exit1_arg10]
  rfl

/-! ## After the third launch, and the result -/

/-- The third launch's output is the reference's scores before the final reshape. -/
theorem exit2_scores : W6 m ρ c (Proc.devRef .tc main_v63) = val_main_v86 (F := Ideal) a0 a1 a2 a3 a4 a5 a6 a7 a8 a9 a10 := by
  refine (W6_arr m ρ c 3).trans ?_
  rw [Cert.KernelIdeal.Region2.output (V5 m ρ) c, Cert.ReferenceIdeal.Layers.scores,
    entry2_feats, entry2_w, entry2_b, Cert.Spec.shapeCast_row]

/-- The program's result buffer ends at the reference's result term of the arguments. -/
theorem result : W7 m ρ c (Proc.devRef .tc main_v64) = val_main_v87 (F := Ideal) a0 a1 a2 a3 a4 a5 a6 a7 a8 a9 a10 := by
  show StableHlo.after hostOps3 (W6 m ρ c) (Proc.devRef .tc main_v64) = _
  after_results_simp
  rw [exit2_scores]
  rfl

end Cert.KernelIdeal.HostValue

end
-- ==== Proof.lean ====
/-
  The certificate of a two-layer GraphSAGE encoder with a linear link decoder: the kernel program against its
  reference, both read at the extended reals.

  Both programs gather node features along 1.6 million edges, sum them per destination node, divide by the in-degree
  clamped at one, and apply `mean · Wlᵀ + bl + x · Wrᵀ` — twice, a rectifier between —, then gather the embeddings at the
  two endpoints of 200 000 candidate edges, join them and apply `feats · Wdecᵀ + bdec`. The reference does all of it
  with host operations. The kernel program keeps the gathers and scatters on the host and runs the three dense stages
  as kernel launches over tiles of rows (twenty tiles each), the weights transposed on the host beforehand.

  At the extended reals a change of float format is the identity, a matrix-unit product into a zero accumulator and the
  host's general product are the same finite sum, and a row of each dense stage depends on the same row of its operands
  only; so each launch leaves in its output array exactly the reference's stage of the arrays it found
  (Proof/Region0, Region1, Region2 over Proof/LibSageLayer; Proof/RefLayers for the reference's side), the host stretches
  between the launches are the reference's own gathers and scatters term for term (Proof/Stretch0, Stretch1,
  Stretch2), and the program's result buffer ends at the reference's result term of the arguments. No law of arithmetic
  that could fail at an infinity is used: the two programs apply the same operations in the same order to the same
  entries, and the precondition is never opened.

  The three frames are the generated ones (the reference's is its generated run with the result dropped); the ideal pass
  rewrote nothing, so `preserves` asks nothing.
-/
import proofs.«159179_j79963701117112_2_alg».proof.Defs
import proofs.«159179_j79963701117112_2_alg».proof.Proof.Gen.Kernel
import proofs.«159179_j79963701117112_2_alg».proof.Proof.Gen.Kernel.Frame
import proofs.«159179_j79963701117112_2_alg».proof.Proof.Gen.KernelIdeal
import proofs.«159179_j79963701117112_2_alg».proof.Proof.Gen.KernelIdeal.Frame
import proofs.«159179_j79963701117112_2_alg».proof.Proof.Gen.ReferenceIdeal
import proofs.«159179_j79963701117112_2_alg».proof.Proof.Gen.Pre_finite_inputs
import proofs.«159179_j79963701117112_2_alg».proof.Proof.Gen.ReferenceIdeal.Run
import proofs.«159179_j79963701117112_2_alg».proof.Proof.Gen.ReferenceIdeal.Read
import proofs.«159179_j79963701117112_2_alg».proof.Proof.KernelRun
import proofs.«159179_j79963701117112_2_alg».proof.Proof.Stretch2

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories agreeing on the arguments, both programs end with the result buffer at the reference's result term
    of the arguments: the kernel program by the values its launches and host stretches leave, the reference by its run. -/
theorem algebraic : Cert.algebraic_KernelIdeal_ReferenceIdeal := by
  intro m ρ m' ρ' _ hagree
  refine ⟨fun c => Cert.KernelIdeal.Gen.W7 m ρ c (Proc.devRef .tc Cert.KernelIdeal.main_v64),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  show Cert.ReferenceIdeal.Value.res_main_v87 m' c
    = Cert.KernelIdeal.Gen.W7 m ρ c (Proc.devRef .tc Cert.KernelIdeal.main_v64)
  rw [Cert.ReferenceIdeal.Read.val_main_v87_eq, Cert.KernelIdeal.HostValue.result m ρ c,
    h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
